-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S2048x1024 : Shape := ⟨2, ![2048, 1024]⟩

abbrev nBuf : Space → Nat
  | .hbm => 25
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .i1⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x1024, .f32⟩
  | .hbm, ⟨22, _⟩ => ⟨S1024x1024, .bf16⟩
  | .hbm, ⟨23, _⟩ => ⟨S1x1024, .f32⟩
  | .hbm, ⟨24, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1x1024, .f32⟩
  | .local _ .vmem, ⟨4, _⟩ => ⟨S1024, .f32⟩
  | .local _ .vmem, ⟨5, _⟩ => ⟨S2048x1024, .f32⟩
  | .local _ .vmem, ⟨6, _⟩ => ⟨S2048x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  transposes_S1024x1024_S1024x1024_1_0 : S1024x1024.Transposes [1, 0] S1024x1024
  bitsLt_bf16_f32 : FTy.bits .bf16 < FTy.bits .f32
  shapeCasts_S1024x1_S1x1024 : S1024x1.ShapeCasts S1x1024
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024_S1024_0 : ∀ a, (![0] : Fin 1 → Nat) a + S1024.size a ≤ S1024.size a
  h_S1024 : 0 < S1024.numel
  shapeCasts_S1024_S1x1024 : S1024.ShapeCasts S1x1024
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S32768x1024.size a
  hwx0_4 : ∀ i : grid0.Coords, EltTy.bits .f32 = 32 ∨ (Rect.block (s := S32768x1024) S2048x1024.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .i1⟩
  | .hbm, ⟨6, _⟩ => ⟨S_, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x1024, .f32⟩
  | .hbm, ⟨23, _⟩ => ⟨S1024x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.LibRealSums.lean ====
/-
  A real factor and a finite sum, in the extended reals. Multiplication does not distribute over sums of extended reals
  in general (an infinity of each sign spoils it), but it does over reals: a real factor distributes over a sum of two
  reals, and moves inside a finite sum of products of reals, (Σ f·g)·c = Σ f·(g·c). Also: the larger of two reals is a
  real. Nothing here mentions a program.
-/
import Mathlib.Algebra.BigOperators.Fin
import Mathlib.Data.EReal.Inv
import proofs.«105730_j14259291422933_2_alg».proof.Proof.LibIdealSums

open scoped BigOperators

namespace Cert.Lib.RealSums

open Cert.Lib.IdealSums

/-- The larger of two reals is a real. -/
theorem isReal_max {x y : EReal} (hx : IsReal x) (hy : IsReal y) : IsReal (max x y) := by
  rcases max_choice x y with h | h <;> rw [h] <;> assumption

/-- A real factor distributes over a sum of two reals. -/
theorem add_mul_of_isReal {u v c : EReal} (hu : IsReal u) (hv : IsReal v) (hc : IsReal c) :
    (u + v) * c = u * c + v * c := by
  obtain ⟨a, rfl⟩ := hu; obtain ⟨b, rfl⟩ := hv; obtain ⟨d, rfl⟩ := hc
  rw [← EReal.coe_add, ← EReal.coe_mul, ← EReal.coe_mul, ← EReal.coe_mul, ← EReal.coe_add, add_mul]

/-- A real factor moves inside a finite sum of products of reals: (Σ f·g)·c = Σ f·(g·c). -/
theorem sum_mul_of_isReal {ι : Type*} (s : Finset ι) (f g : ι → EReal) (c : EReal)
    (hf : ∀ i ∈ s, IsReal (f i)) (hg : ∀ i ∈ s, IsReal (g i)) (hc : IsReal c) :
    (∑ i ∈ s, f i * g i) * c = ∑ i ∈ s, f i * (g i * c) := by
  classical
  induction s using Finset.induction_on with
  | empty => simp
  | insert a s ha ih =>
    have hs : IsReal (∑ i ∈ s, f i * g i) :=
      IsReal.sum s fun i hi => (hf i (Finset.mem_insert_of_mem hi)).mul (hg i (Finset.mem_insert_of_mem hi))
    have ha' : IsReal (f a * g a) := (hf a (Finset.mem_insert_self a s)).mul (hg a (Finset.mem_insert_self a s))
    rw [Finset.sum_insert ha, Finset.sum_insert ha, add_mul_of_isReal ha' hs hc, mul_assoc,
      ih (fun i hi => hf i (Finset.mem_insert_of_mem hi)) (fun i hi => hg i (Finset.mem_insert_of_mem hi))]

end Cert.Lib.RealSums
-- ==== Proof.BinaryLinear.lean ====
/-
  A linear layer with binarised weights, on the extended reals, as a function of whole arrays.

  For a weight matrix W (one row per output feature) the layer uses the SIGN of each weight, +1 where the weight is
  at least zero and −1 elsewhere, and one positive SCALE per output feature: the mean of the absolute values of that
  feature's row of W, clamped below at a small literal ε. The output at (n, o) is the bias b(o) plus the product of
  row n of x with the scaled signs of row o of W.

  The scale may be applied to each sign before the contraction, Σₖ x(n,k) · (sgn W(o,k) · scale(o)), or once to the
  contracted sum, (Σₖ x(n,k) · sgn W(o,k)) · scale(o). The two agree when every entry of x and of W is a real number:
  then each term and the scale are reals, and a real factor distributes over a finite sum of reals (it would not over
  infinities of both signs). The bias is added last on both sides and may be any extended real.
-/
import Idealize.ShloMosaic.PureOps.Ideal
import Idealize.ShloMosaic.PureOps.Ideal.Laws
import Idealize.ShloMosaic.Lib.ValueIdx
import proofs.«105730_j14259291422933_2_alg».proof.Proof.LibIdealSums
import proofs.«105730_j14259291422933_2_alg».proof.Proof.LibRealSums

open scoped BigOperators

noncomputable section

namespace Cert.BinaryLinear

open Idealize.ShloMosaic Idealize.ShloMosaic.ValueIdx Cert.Lib.IdealSums Cert.Lib.RealSums

/-! ## The literals -/

/-- The pattern of 1.0 denotes 1. -/
theorem ofBits_one : Ideal.ofBits .f32 0x3F800000#32 = ((1 : ℝ) : EReal) := by
  simp [Ideal.ofBits, Ideal.ieee, -EReal.coe_mul]; norm_num

/-- The pattern of −1.0 denotes −1. -/
theorem ofBits_neg_one : Ideal.ofBits .f32 0xBF800000#32 = ((-1 : ℝ) : EReal) := by
  simp [Ideal.ofBits, Ideal.ieee, -EReal.coe_mul]; norm_num

/-- The pattern of 1024.0 denotes 1024. -/
theorem ofBits_1024 : Ideal.ofBits .f32 0x44800000#32 = ((1024 : ℝ) : EReal) := by
  simp [Ideal.ofBits, Ideal.ieee, -EReal.coe_mul]; norm_num

/-- The clamp ε (the 32-bit float nearest 10⁻⁶) denotes a real number. -/
theorem isReal_eps : IsReal (Ideal.ofBits .f32 0x358637BD#32) := by
  refine isReal_iff.2 ⟨?_, ?_⟩ <;> simp [Ideal.ofBits, Ideal.ieee, -EReal.coe_mul]

/-! ## The layer -/

/-- The sign of a weight: the literal 1.0 where the weight is at least the zero literal, the literal −1.0 elsewhere. -/
def sgn (w : Ideal .f32) : Ideal .f32 :=
  Scalar.select (FloatOps.cmpf .oge w (FloatOps.ofBits (F := Ideal) .f32 0x00000000#32))
    (FloatOps.ofBits (F := Ideal) .f32 0x3F800000#32) (FloatOps.ofBits (F := Ideal) .f32 0xBF800000#32)

/-- The scale of output feature o: the zero literal plus the sum of the absolute values of row o of W, divided by the
    literal 1024.0, clamped below at the literal ε. -/
def scale (W : (⟨2, ![1024, 1024]⟩ : Shape).Idx → Ideal .f32) (o : Fin 1024) : Ideal .f32 :=
  FloatOps.maximumf
    (FloatOps.hostDivf
      (FloatOps.ofBits (F := Ideal) .f32 0x00000000#32 + ∑ k : Fin 1024, FloatOps.hostAbsf (W (ix2 o k)))
      (FloatOps.ofBits (F := Ideal) .f32 0x44800000#32))
    (FloatOps.ofBits (F := Ideal) .f32 0x358637BD#32)

/-- The layer with the scale applied once to each contracted sum. -/
def scaledAfter (x : (⟨2, ![32768, 1024]⟩ : Shape).Idx → Ideal .f32) (W : (⟨2, ![1024, 1024]⟩ : Shape).Idx → Ideal .f32)
    (b : (⟨1, ![1024]⟩ : Shape).Idx → Ideal .f32) : (⟨2, ![32768, 1024]⟩ : Shape).Idx → Ideal .f32 :=
  fun i => (∑ k : Fin 1024, x (ix2 (i 0) k) * sgn (W (ix2 (i 1) k))) * scale W (i 1) + b (ix1 (i 1))

/-- The layer with the scale applied to each sign before the contraction. -/
def scaledBefore (x : (⟨2, ![32768, 1024]⟩ : Shape).Idx → Ideal .f32) (W : (⟨2, ![1024, 1024]⟩ : Shape).Idx → Ideal .f32)
    (b : (⟨1, ![1024]⟩ : Shape).Idx → Ideal .f32) : (⟨2, ![32768, 1024]⟩ : Shape).Idx → Ideal .f32 :=
  fun i => (∑ k : Fin 1024, x (ix2 (i 0) k) * (sgn (W (ix2 (i 1) k)) * scale W (i 1))) + b (ix1 (i 1))

/-- A sign is one of two real literals. -/
theorem isReal_sgn (w : Ideal .f32) : IsReal (sgn w) := by
  unfold sgn Scalar.select
  split_ifs
  · exact ⟨1, ofBits_one⟩
  · exact ⟨-1, ofBits_neg_one⟩

/-- The scale of a row of reals is a real: a finite sum of absolute values of reals, divided by 1024, against a real. -/
theorem isReal_scale (W : (⟨2, ![1024, 1024]⟩ : Shape).Idx → Ideal .f32) (hW : ∀ i, IsReal (W i)) (o : Fin 1024) :
    IsReal (scale W o) := by
  have habs : ∀ k : Fin 1024, IsReal (FloatOps.hostAbsf (W (ix2 o k))) := fun k =>
    show IsReal (max (W (ix2 o k)) (-(W (ix2 o k)))) from isReal_max (hW _) (hW _).neg
  have hsum : IsReal (FloatOps.ofBits (F := Ideal) .f32 0x00000000#32 + ∑ k : Fin 1024, FloatOps.hostAbsf (W (ix2 o k))) :=
    IsReal.add ⟨0, by rw [Ideal.ofBits_def, Ideal.ofBits_zero_f32]; rfl⟩ (IsReal.sum _ fun k _ => habs k)
  have h1024 : (FloatOps.ofBits (F := Ideal) .f32 0x44800000#32) = ((1024 : ℝ) : EReal) := ofBits_1024
  have hdiv : IsReal (FloatOps.hostDivf
      (FloatOps.ofBits (F := Ideal) .f32 0x00000000#32 + ∑ k : Fin 1024, FloatOps.hostAbsf (W (ix2 o k)))
      (FloatOps.ofBits (F := Ideal) .f32 0x44800000#32)) := by
    rw [Ideal.hostDivf_def, h1024]
    exact IsReal.div hsum (isReal_coe _) (by exact_mod_cast (by norm_num : (1024 : ℝ) ≠ 0))
  exact isReal_max hdiv isReal_eps

/-- THE LAW: on real inputs, scaling each sign before the contraction is scaling the contracted sum. -/
theorem scaledBefore_eq_scaledAfter (x : (⟨2, ![32768, 1024]⟩ : Shape).Idx → Ideal .f32)
    (W : (⟨2, ![1024, 1024]⟩ : Shape).Idx → Ideal .f32) (b : (⟨1, ![1024]⟩ : Shape).Idx → Ideal .f32)
    (hx : ∀ i, IsReal (x i)) (hW : ∀ i, IsReal (W i)) : scaledBefore x W b = scaledAfter x W b := by
  funext i
  unfold scaledBefore scaledAfter
  rw [sum_mul_of_isReal Finset.univ (fun k => x (ix2 (i 0) k)) (fun k => sgn (W (ix2 (i 1) k))) (scale W (i 1))
    (fun k _ => hx _) (fun k _ => isReal_sgn _) (isReal_scale W hW (i 1))]

end Cert.BinaryLinear

end
-- ==== Proof.RealInputs.lean ====
/-
  The input check, read back: when the check "every entry of x, of W and of b is below +∞ in absolute value" answers
  true, every entry of the three arrays is a real number. The check is a conjunction of three reductions by "and" over
  all the entries of an array; a conjunction that is true has true conjuncts, a reduction by "and" that is true met only
  true entries, and an entry whose absolute value compares below +∞ is neither infinity.
-/
import proofs.«105730_j14259291422933_2_alg».proof.Pre_finite_inputs
import proofs.«105730_j14259291422933_2_alg».proof.Proof.Gen.Pre_finite_inputs
import Idealize.ShloMosaic.Lib.ReduceAll
import Idealize.ShloMosaic.Lib.ValueIdx
import proofs.«105730_j14259291422933_2_alg».proof.Proof.LibIdealSums

noncomputable section

namespace Cert.BinaryLinear.RealInputs

open Idealize.ShloMosaic Idealize.ShloMosaic.ValueIdx Cert.Lib.IdealSums Cert.Pre_finite_inputs

/-- The scalar shape has one index. -/
instance : Subsingleton S_.Idx := ⟨fun a b => funext fun d => d.elim0⟩

/-- If the input check holds of (x, W, b), each of their entries is a real. -/
theorem isReal_of_check (x : FVec Ideal S32768x1024 .f32) (W : FVec Ideal S1024x1024 .f32) (b : FVec Ideal S1024 .f32)
    (h : fn (F := Ideal) x W b = fun _ => 1#1) :
    (∀ i, IsReal (x i)) ∧ (∀ i, IsReal (W i)) ∧ (∀ i, IsReal (b i)) := by
  have h0 := congrFun h ix0
  dsimp only [fn] at h0
  change IntOp.andi (IntOp.andi _ _) _ = 1#1 at h0
  obtain ⟨h01, hb⟩ := IntOp.andi_eq_one.1 h0
  obtain ⟨hx, hW⟩ := IntOp.andi_eq_one.1 h01
  refine ⟨fun i => ?_, fun i => ?_, fun i => ?_⟩
  · exact isReal_of_cmpf_abs (x i) (Host.reduce_andi_all _ _ _ _ _ hx i)
  · exact isReal_of_cmpf_abs (W i) (Host.reduce_andi_all _ _ _ _ _ hW i)
  · exact isReal_of_cmpf_abs (b i) (Host.reduce_andi_all _ _ _ _ _ hb i)

end Cert.BinaryLinear.RealInputs

end
-- ==== Proof.ReferenceValue.lean ====
/-
  The reference program computes the binarised linear layer with the scale applied to each sign before the
  contraction: its last stage, read one operation at a time, is `scaledBefore` of its three arguments. The signs are a
  select between two literals on "W ≥ 0"; the scale of row o is the row's sum of absolute values over 1024 against ε,
  kept as a 1024×1 column and repeated along the row; the contraction is over the second axis of both operands; the
  bias is repeated down the rows.
-/
import proofs.«105730_j14259291422933_2_alg».proof.Proof.Gen.ReferenceIdeal.Read
import proofs.«105730_j14259291422933_2_alg».proof.Proof.BinaryLinear

open scoped BigOperators

noncomputable section

namespace Cert.ReferenceIdeal.RefValue

open Cert.ReferenceIdeal Cert.ReferenceIdeal.Read Idealize.ShloMosaic Idealize.ShloMosaic.ValueIdx Cert.BinaryLinear

/-- The reference's signs, entry by entry. -/
theorem sign_at (W : FVec Ideal S1024x1024 .f32) (i : S1024x1024.Idx) : val_main_v3 (F := Ideal) W i = sgn (W i) := by
  rw [val_main_v3_apply, val_main_v2_apply, val_main_v1_apply, val_main_v0_apply, val_main_call0_v0_apply,
    val_main_call0_v1_apply]
  rfl

/-- The reference's column of scales: entry (o, 0) is the scale of row o of W. -/
theorem scale_at (W : FVec Ideal S1024x1024 .f32) (o : Fin 1024) (z : Fin 1) :
    val_main_v10 (F := Ideal) W (ix2 o z) = scale W o := by
  rw [val_main_v10_apply, val_main_v8_apply, val_main_v6_apply, val_main_v5_apply, val_main_v7_apply, val_main_v9_apply]
  have e : ∀ k : Fin 1024, val_main_v4 (F := Ideal) W (idx_main_v5 (idx_main_v6 (ix2 o z)) k) = FloatOps.hostAbsf (W (ix2 o k)) :=
    fun k => by
      rw [val_main_v4_apply]
      exact congrArg (fun y => FloatOps.hostAbsf (W y))
        (funext fun a => Fin.ext (by match a with | ⟨0, _⟩ => rfl | ⟨1, _⟩ => rfl))
  simp only [e]
  rfl

/-- The reference's result is the layer with each sign scaled before the contraction. -/
theorem reference_eq (x : FVec Ideal S32768x1024 .f32) (W : FVec Ideal S1024x1024 .f32) (b : FVec Ideal S1024 .f32) :
    val_main_v16 (F := Ideal) x W b = scaledBefore x W b := by
  funext i
  obtain ⟨n, o, rfl⟩ : ∃ (n : Fin 32768) (o : Fin 1024), i = ix2 n o := ⟨i 0, i 1, eq_ix2 i⟩
  rw [val_main_v16_apply, val_main_v13_apply, val_main_v15_apply, val_main_v14_apply]
  unfold scaledBefore
  refine congrArg₂ (· + ·) (Finset.sum_congr rfl fun k _ => ?_) ?_
  · have el : lidx_main_v13 (ix2 n o) k = ix2 n k :=
      funext fun a => Fin.ext (by match a with | ⟨0, _⟩ => rfl | ⟨1, _⟩ => rfl)
    have er : ridx_main_v13 (ix2 n o) k = ix2 o k :=
      funext fun a => Fin.ext (by match a with | ⟨0, _⟩ => rfl | ⟨1, _⟩ => rfl)
    have ec : idx_main_v11 (ix2 o k) = ix2 o (0 : Fin 1) :=
      funext fun a => Fin.ext (by match a with | ⟨0, _⟩ => rfl | ⟨1, _⟩ => rfl)
    rw [el, er, val_main_v12_apply, sign_at, val_main_v11_apply, ec, scale_at]
    rfl
  · exact congrArg b (funext fun a => Fin.ext (by match a with | ⟨0, _⟩ => rfl))

end Cert.ReferenceIdeal.RefValue

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.KernelBody.lean ====
/-
  What the kernel body computes at one entry of a block. From a 2048×1024 block X of x, the whole 1024×1024 matrix S of
  transposed signs, the 1×1024 row c of scales and the 1024 entries of the bias b, the body stores at (p, q)

      (Σₖ X(p, k) · S(k, q)) · c(0, q) + b(q):

  the matrix product is accumulated into zeros, so at an entry it is the sum over the contracted coordinate; the change
  of float format before it is the identity on the extended reals; the re-shapings in place are the identity; a 1×1024
  row broadcast down 2048 rows reads its entry q at every (p, q).
-/
import proofs.«105730_j14259291422933_2_alg».proof.Proof.Gen.KernelIdeal.Skeleton
import Idealize.ShloMosaic.Lib.Pipeline.Value
import Idealize.ShloMosaic.Lib.ValueIdx
import Idealize.ShloMosaic.Lib.ValueLayout
import proofs.«105730_j14259291422933_2_alg».proof.Proof.LibBlockReads

open scoped BigOperators

noncomputable section

namespace Cert.KernelIdeal.Body

open Cert.KernelIdeal Cert.KernelIdeal.Gen Idealize.ShloMosaic Idealize.ShloMosaic.ValueIdx

/-- The body's stored value at (p, q), from its four loaded blocks. -/
theorem payload_at (x0 : Vec Ideal S2048x1024 .f32) (x1 : Vec Ideal S1024x1024 .bf16) (x2 : Vec Ideal S1x1024 .f32)
    (x3 : Vec Ideal S1024 .f32) (p : Fin 2048) (q : Fin 1024) :
    k0_pay1 (F := Ideal) x0 x1 x2 x3 (ix2 p q)
      = (∑ k : Fin 1024, x0 (ix2 p k) * x1 (ix2 k q)) * x2 (ix2 (0 : Fin 1) q) + x3 (ix1 q) := by
  unfold k0_pay1
  show matmul (F := Ideal) _ none (truncf .bf16 x0 _) (shapeCast S1024x1024 x1 _) (constant S2048x1024 .f32 0x00000000#32) (ix2 p q)
      * broadcastTo S2048x1024 (shapeCast S1x1024 x2 _) _ (ix2 p q)
      + broadcastTo S2048x1024 (shapeCast S1x1024 x3 _) _ (ix2 p q) = _
  rw [shapeCast_self, shapeCast_self, broadcastTo_1b_ab_apply, broadcastTo_1b_ab_apply, shapeCast_a_1a_apply,
    Cert.Lib.BlockReads.matmul_zero_rows_apply _ rfl rfl rfl rfl rfl rfl]
  rfl

end Cert.KernelIdeal.Body

end
-- ==== Proof.KernelOperands.lean ====
/-
  What the kernel's region finds in the two operands the host program prepares for it. Before the region the host
  program computes, from W alone, the same signs and the same column of scales as the reference does, operation for
  operation; it then TRANSPOSES the signs (entry (k, o) of the operand is the sign of W(o, k)) and re-shapes the
  1024×1 column of scales into a 1×1024 row (entry (0, o) is the scale of row o of W). The change of float format of the
  transposed signs is the identity on the extended reals.
-/
import proofs.«105730_j14259291422933_2_alg».proof.Proof.Gen.KernelIdeal.Frame
import Idealize.ShloMosaic.Lib.StableHlo.Run
import Idealize.ShloMosaic.Lib.ValueLayout
import proofs.«105730_j14259291422933_2_alg».proof.Proof.ReferenceValue

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx Cert.BinaryLinear

variable (m : (ℓ : Loc nD τ sig) → Buf (Elt Ideal) ℓ)

/-- The signs operand, as the host operations' term: the reference's signs of W, transposed. -/
theorem signs_term (c : Dev nD) :
    (V m c main_v11 : S1024x1024.Idx → EReal)
      = transpose S1024x1024 [1, 0]
          (Cert.ReferenceIdeal.Read.val_main_v3 (F := Ideal) (m ((c : Thread nD τ).loc main_arg1)))
          transposes_S1024x1024_S1024x1024_1_0 := by
  dsimp only [Gen.V]
  simp only [Gen.hostOps0, Gen.hostOps0_1, Gen.hostOps0_2, List.flatten_cons, List.flatten_nil, List.append_nil,
    List.cons_append, List.nil_append]
  after_results
  rfl

/-- Entry (k, o) of the signs operand is the sign of W(o, k). -/
theorem signs_at (c : Dev nD) (k o : Fin 1024) :
    (V m c main_v11 : S1024x1024.Idx → EReal) (ix2 k o) = sgn (m ((c : Thread nD τ).loc main_arg1) (ix2 o k)) := by
  rw [signs_term, transpose_ix2_apply, Cert.ReferenceIdeal.RefValue.sign_at]

/-- The scales operand, as the host operations' term: the reference's column of scales of W, re-shaped to a row. -/
theorem scales_term (c : Dev nD) :
    (V m c main_v12 : S1x1024.Idx → EReal)
      = shapeCast S1x1024 (Cert.ReferenceIdeal.Read.val_main_v10 (F := Ideal) (m ((c : Thread nD τ).loc main_arg1)))
          shapeCasts_S1024x1_S1x1024 := by
  dsimp only [Gen.V]
  simp only [Gen.hostOps0, Gen.hostOps0_1, Gen.hostOps0_2, List.flatten_cons, List.flatten_nil, List.append_nil,
    List.cons_append, List.nil_append]
  after_results
  rfl

/-- Entry (0, o) of the scales operand is the scale of row o of W. -/
theorem scales_at (c : Dev nD) (z : Fin 1) (o : Fin 1024) :
    (V m c main_v12 : S1x1024.Idx → EReal) (ix2 z o) = scale (m ((c : Thread nD τ).loc main_arg1)) o := by
  rw [scales_term]
  refine (shapeCast_apply _ shapeCasts_S1024x1_S1x1024 (ix2 z o) (ix2 o (0 : Fin 1)) ?_).trans
    (Cert.ReferenceIdeal.RefValue.scale_at _ o 0)
  rw [Shape.rowMajor_val_two, Shape.rowMajor_val_two]
  show o.val * 1 + 0 = z.val * 1024 + o.val
  have hz : z.val = 0 := by omega
  rw [hz]; omega

end Cert.KernelIdeal.Operands

end
-- ==== Proof.KernelValue.lean ====
/-
  The kernel's result array as one function of its arguments. The grid has 16 points; point t works on rows
  2048·t … 2048·t + 2047 of x and of the result, and on the whole of the other three operands. At an entry (p, q) of
  its block the body stores (Σₖ X(p, k) · S(k, q)) · c(0, q) + b(q); with X the rows of x at 2048·t, S the transposed
  signs of W and c the row of scales of W, that is entry (2048·t + p, q) of the layer with the scale applied to the
  contracted sum. The 16 blocks of rows cover the result, so after the run the result array is that layer.
-/
import proofs.«105730_j14259291422933_2_alg».proof.Proof.Gen.KernelIdeal.Value
import proofs.«105730_j14259291422933_2_alg».proof.Proof.KernelBody
import proofs.«105730_j14259291422933_2_alg».proof.Proof.KernelOperands

set_option maxRecDepth 16384

open scoped BigOperators

noncomputable section

namespace Cert.KernelIdeal.Whole

open Cert.KernelIdeal Cert.KernelIdeal.Gen Idealize.ShloMosaic Idealize.ShloMosaic.TcCoe Idealize.SL.Sem
open Idealize.ShloMosaic.ValueIdx Cert.BinaryLinear
open Idealize.ShloMosaic.Pipeline (Dat)

variable (m : (ℓ : Loc nD τ sig) → Buf (Elt Ideal) ℓ) (ρ : Dev nD → PrngReg)

theorem zero_off2 : (![0, 0] : Fin 2 → Nat) = fun _ => 0 := funext fun a => by fin_cases a <;> rfl
theorem zero_off1 : (![0] : Fin 1 → Nat) = fun _ => 0 := funext fun a => by fin_cases a <;> rfl

/-- One entry of one block: if the block of x holds row r of x at its row p, the second operand the transposed signs
    of W, the third the row of scales of W and the fourth the bias, the body's value at (p, q) is the layer at (r, q). -/
theorem block_entry (X : (⟨2, ![32768, 1024]⟩ : Shape).Idx → Ideal .f32) (Wm : (⟨2, ![1024, 1024]⟩ : Shape).Idx → Ideal .f32)
    (b : (⟨1, ![1024]⟩ : Shape).Idx → Ideal .f32)
    (x0 : Vec Ideal S2048x1024 .f32) (x1 : Vec Ideal S1024x1024 .bf16) (x2 : Vec Ideal S1x1024 .f32) (x3 : Vec Ideal S1024 .f32)
    (p : Fin 2048) (q : Fin 1024) (r : Fin 32768)
    (h0 : ∀ k : Fin 1024, x0 (ix2 p k) = X (ix2 r k))
    (h1 : ∀ k o : Fin 1024, x1 (ix2 k o) = sgn (Wm (ix2 o k)))
    (h2 : ∀ o : Fin 1024, x2 (ix2 (0 : Fin 1) o) = scale Wm o)
    (h3 : ∀ o : Fin 1024, x3 (ix1 o) = b (ix1 o)) :
    k0_pay1 (F := Ideal) x0 x1 x2 x3 (ix2 p q) = scaledAfter X Wm b (ix2 r q) := by
  rw [Cert.KernelIdeal.Body.payload_at, h2, h3]
  unfold scaledAfter
  simp only [h0, h1]

/-- The printed index maps, decided over the 16 points: the blocks of x and of the result are at block row t, every
    other block index is 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Every block row of the result is some point's. -/
theorem index_onto : ∀ q0 : Fin 16, ∃ t : Fin cfg0.N, win0_4.index t = ![q0.val, 0] :=
  (by decide +kernel : ∀ q0 : Fin 16, ∃ t : Fin grid0.N, win0_4.index t = ![q0.val, 0])

/-- Point t's block of x, read at (p, k), is x at (2048·t + p, k). -/
theorem xblock_at (c : Dev nD) (t : Fin cfg0.N) (p : Fin 2048) (k : Fin 1024) (r : Fin 32768)
    (hr : r.val = t.val * 2048 + p.val) :
    iblk m c 0 t (ix2 p k) = m ((c : Thread nD τ).loc main_arg0) (ix2 r k) := by
  obtain ⟨e0, e1, -⟩ := index_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = r.val; omega
  | ⟨1, _⟩ => show win0_0.index t (1 : Fin 2) * 1024 + 1 * k.val = k.val; omega

/-- Point t's block of the signs operand is the whole operand: at (k, o) the sign of W(o, k). -/
theorem signs_block_at (c : Dev nD) (t : Fin cfg0.N) (k o : Fin 1024) :
    iblk m c 1 t (ix2 k o) = sgn (m ((c : Thread nD τ).loc main_arg1) (ix2 o k)) := by
  obtain ⟨-, -, e0, e1, -⟩ := index_facts t
  refine Eq.trans ?_ (Cert.KernelIdeal.Operands.signs_at m c k o)
  show V m c main_v11 (((cfg0.win 1).blk t).view.emb (ix2 k o)) = V m c main_v11 (ix2 k o)
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * o.val = o.val; omega

/-- Point t's block of the scales operand is the whole row: at (0, o) the scale of row o of W. -/
theorem scales_block_at (c : Dev nD) (t : Fin cfg0.N) (o : Fin 1024) :
    iblk m c 2 t (ix2 (0 : Fin 1) o) = scale (m ((c : Thread nD τ).loc main_arg1)) o := by
  obtain ⟨-, -, -, -, e0, e1, -⟩ := index_facts t
  refine Eq.trans ?_ (Cert.KernelIdeal.Operands.scales_at m c 0 o)
  show V m c main_v12 (((cfg0.win 2).blk t).view.emb (ix2 (0 : Fin 1) o)) = V m c main_v12 (ix2 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * o.val = o.val; omega

/-- Point t's block of the bias is the whole bias. -/
theorem bias_block_at (c : Dev nD) (t : Fin cfg0.N) (o : Fin 1024) :
    iblk m c 3 t (ix1 o) = m ((c : Thread nD τ).loc main_arg2) (ix1 o) := by
  obtain ⟨-, -, -, -, -, -, e0, -⟩ := index_facts t
  show V m c main_arg2 (((cfg0.win 3).blk t).view.emb (ix1 o)) = _
  rw [V_main_arg2]
  refine congrArg _ (funext fun a => Fin.ext ?_)
  match a with
  | ⟨0, _⟩ => show win0_3.index t (0 : Fin 1) * 1024 + 1 * o.val = o.val; omega

/-- WHAT POINT t WRITES BACK is block t of the layer of the arguments. -/
theorem flushed_eq (c : Dev nD) (t : Fin cfg0.N) :
    (dats m 0 c).flushed 4 t = ((cfg0.win 4).blk t).view.read (Elt Ideal)
      (scaledAfter (m ((c : Thread nD τ).loc main_arg0)) (m ((c : Thread nD τ).loc main_arg1)) (m ((c : Thread nD τ).loc main_arg2))) := by
  rw [Cert.KernelIdeal.Value.flushed4]
  unfold out0_4
  rw [View.canon_unit_zero zero_off2]
  simp only [View.ld_unit_zero (S := S2048x1024) zero_off2, View.ld_unit_zero (S := S1024x1024) zero_off2,
    View.ld_unit_zero (S := S1x1024) zero_off2, View.ld_unit_zero (S := S1024) zero_off1]
  obtain ⟨-, -, -, -, -, -, -, e0, e1⟩ := index_facts t
  funext j
  have hp : (j 0).val < 2048 := (j 0).isLt
  have hq : (j 1).val < 1024 := (j 1).isLt
  have ht : t.val < 16 := t.isLt
  show k0_pay1 (F := Ideal) (iblk m c 0 t) (iblk m c 1 t) (iblk m c 2 t) (iblk m c 3 t) j
      = scaledAfter _ _ _ (((cfg0.win 4).blk t).view.emb j)
  have ej : j = ix2 (⟨(j 0).val, hp⟩ : Fin 2048) (⟨(j 1).val, hq⟩ : Fin 1024) :=
    funext fun a => Fin.ext (by match a with | ⟨0, _⟩ => rfl | ⟨1, _⟩ => rfl)
  have ei : ((cfg0.win 4).blk t).view.emb j
      = ix2 (⟨t.val * 2048 + (j 0).val, by omega⟩ : Fin 32768) (⟨(j 1).val, hq⟩ : Fin 1024) :=
    funext fun a => Fin.ext (by
      match a with
      | ⟨0, _⟩ => show win0_4.index t (0 : Fin 2) * 2048 + 1 * (j 0).val = t.val * 2048 + (j 0).val; omega
      | ⟨1, _⟩ => show win0_4.index t (1 : Fin 2) * 1024 + 1 * (j 1).val = (j 1).val; omega)
  rw [ei]
  refine (congrArg (k0_pay1 (F := Ideal) (iblk m c 0 t) (iblk m c 1 t) (iblk m c 2 t) (iblk m c 3 t)) ej).trans ?_
  exact block_entry _ _ _ (iblk m c 0 t) (iblk m c 1 t) (iblk m c 2 t) (iblk m c 3 t) _ _ _
    (fun k => xblock_at m c t _ k _ rfl) (fun k o => signs_block_at m c t k o) (fun o => scales_block_at m c t o)
    (fun o => bias_block_at m c t o)

/-- An index of the result is in point t's block iff each coordinate is in the block's range on its axis. -/
theorem mem_blk (t : Fin cfg0.N) (i : S32768x1024.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v13).slice (win0_4.rect t)).set ↔ _
  rw [View.set_slice_whole, Rect.mem_set_unit]
  exact Iff.rfl

/-- The 16 blocks of 2048 rows cover the result: row r is in the block of point r / 2048. -/
theorem cover (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  obtain ⟨t, ht⟩ := index_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 1024 ≤ (i 1).val ∧ (i 1).val < win0_4.index t (1 : Fin 2) * 1024 + 1024
    omega

/-- THE RESULT ARRAY after the run is the layer of the arguments, the scale applied to each contracted sum. -/
theorem final (c : Dev nD) : (dats m 0 c).arrAt 4 cfg0.N
    = scaledAfter (m ((c : Thread nD τ).loc main_arg0)) (m ((c : Thread nD τ).loc main_arg1)) (m ((c : Thread nD τ).loc main_arg2)) :=
  (dats m 0 c).arrAt_eq_of_cover 4 _ (fun t _ => flushed_eq m c t) cover

/-- The kernel's run: it ends with the result array at the layer of its arguments, the arguments unchanged. -/
theorem run : θ_run defs (onTc (τ := τ) (main (F := Ideal))) ⟨m, fun _ => 0, ρ⟩ fun r => ∀ c : Dev nD,
      r.2.mem ((c : Thread nD τ).loc main_v13)
        = scaledAfter (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.lean ====
/-
  A linear layer with binarised weights: the kernel against its reference, on the extended reals.

  Both programs compute, from x (32768×1024), W (1024×1024) and b (1024), the signs of W (+1 where W ≥ 0, −1 elsewhere)
  and one scale per output feature (the mean absolute value of that feature's row of W, clamped below at ε), and return
  b(o) plus the contraction of row n of x with the scaled signs of row o of W. The reference multiplies each sign by
  the scale before the contraction; the kernel contracts x with the transposed signs, 2048 rows at a time, and
  multiplies each contracted sum by the scale. The two agree because the inputs are finite: every term and every scale
  is then a real number, and a real factor distributes over a finite sum of reals.

  The three programs' runs (termination, no fault, arguments unchanged) are the generated frames; the idealized kernel is
  the kernel's own text read on the extended reals, so nothing is owed for the idealization.
-/
import proofs.«105730_j14259291422933_2_alg».proof.Defs
import proofs.«105730_j14259291422933_2_alg».proof.Proof.Gen.Kernel
import proofs.«105730_j14259291422933_2_alg».proof.Proof.Gen.Kernel.Skeleton
import proofs.«105730_j14259291422933_2_alg».proof.Proof.Gen.Kernel.Launch
import proofs.«105730_j14259291422933_2_alg».proof.Proof.Gen.Kernel.Points
import proofs.«105730_j14259291422933_2_alg».proof.Proof.Gen.Kernel.Frame
import proofs.«105730_j14259291422933_2_alg».proof.Proof.Gen.KernelIdeal
import proofs.«105730_j14259291422933_2_alg».proof.Proof.Gen.KernelIdeal.Skeleton
import proofs.«105730_j14259291422933_2_alg».proof.Proof.Gen.KernelIdeal.Launch
import proofs.«105730_j14259291422933_2_alg».proof.Proof.Gen.KernelIdeal.Points
import proofs.«105730_j14259291422933_2_alg».proof.Proof.Gen.KernelIdeal.Frame
import proofs.«105730_j14259291422933_2_alg».proof.Proof.Gen.ReferenceIdeal
import proofs.«105730_j14259291422933_2_alg».proof.Proof.Gen.Pre_finite_inputs
import proofs.«105730_j14259291422933_2_alg».proof.Proof.Gen.KernelIdeal.Value
import proofs.«105730_j14259291422933_2_alg».proof.Proof.Gen.ReferenceIdeal.Run
import proofs.«105730_j14259291422933_2_alg».proof.Proof.Gen.ReferenceIdeal.Read
import proofs.«105730_j14259291422933_2_alg».proof.Proof.BinaryLinear
import proofs.«105730_j14259291422933_2_alg».proof.Proof.RealInputs
import proofs.«105730_j14259291422933_2_alg».proof.Proof.ReferenceValue
import proofs.«105730_j14259291422933_2_alg».proof.Proof.KernelValue
import Idealize.ShloMosaic.Adequacy
import Idealize.ShloMosaic.Init

noncomputable section

namespace Cert.Proof

open Idealize.ShloMosaic Idealize.ShloMosaic.TcCoe Idealize.SL.Sem Cert.BinaryLinear

/-- The three runs: each program terminates without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs the kernel's result, the layer with each contracted sum scaled, is the reference's, the layer
    with each sign scaled before the contraction. -/
theorem algebraic : Cert.algebraic_KernelIdeal_ReferenceIdeal := by
  intro m ρ m' ρ' hpre hagree
  refine ⟨fun c => scaledAfter (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.reference_eq, (hagree c).1, (hagree c).2.1,
    (hagree c).2.2]
  obtain ⟨hx, hW, -⟩ := Cert.BinaryLinear.RealInputs.isReal_of_check _ _ _ (hpre c)
  exact scaledBefore_eq_scaledAfter _ _ _ hx hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
